-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x128 : Shape := ⟨3, ![8192, 64, 128]⟩
abbrev S8192x64x1 : Shape := ⟨3, ![8192, 64, 1]⟩
abbrev S8192x128 : Shape := ⟨2, ![8192, 128]⟩
abbrev S128x8192 : Shape := ⟨2, ![128, 8192]⟩
abbrev S_ : Shape := ⟨0, ![]⟩

class Facts : Prop where
  bcast_S_S8192x64x1 : S_.BroadcastsInDim S8192x64x1 (![] : Fin 0 → Fin S8192x64x1.rank)
  reducesTo_S8192x64x1_S_d0_1_2 : S8192x64x1.ReducesTo [0, 1, 2] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x8192 : S_.BroadcastsInDim S128x8192 (![] : Fin 0 → Fin S128x8192.rank)
  reducesTo_S128x8192_S_d0_1 : S128x8192.ReducesTo [0, 1] S_

variable [Facts]

def fn_part1 {F : FTy → Type} [FloatOps F] (main_v13 : IVec S_ 1) (main_v16 : IVec S128x8192 1) : IVec S_ 1 :=
  let main_c_5 : IVec S_ 1 := constantI S_ 1 1#1
  let main_v17 : IVec S_ 1 := (fun x v => Host.reduce IntOp.andi x v reducesTo_S128x8192_S_d0_1 h_S_) main_v16 main_c_5
  let main_v18 : IVec S_ 1 := andi main_v13 main_v17
  main_v18

def fn {F : FTy → Type} [FloatOps F] (main_arg0 : IVec S8192x64x128 32) (main_arg1 : FVec F S8192x64x1 .f32) (main_arg2 : FVec F S8192x64x1 .f32) (main_arg3 : FVec F S8192x128 .f32) (main_arg4 : FVec F S128x8192 .f32) : IVec S_ 1 :=
  let main_v0 : FVec F S8192x64x1 .f32 := Host.absf main_arg1
  let main_cst : FVec F S_ .f32 := constant S_ .f32 0x7F800000#32
  let main_v1 : FVec F S8192x64x1 .f32 := broadcastInDim S8192x64x1 ![] bcast_S_S8192x64x1 main_cst
  let main_v2 : IVec S8192x64x1 1 := cmpf .olt main_v0 main_v1
  let main_c : IVec S_ 1 := constantI S_ 1 1#1
  let main_v3 : IVec S_ 1 := (fun x v => Host.reduce IntOp.andi x v reducesTo_S8192x64x1_S_d0_1_2 h_S_) main_v2 main_c
  let main_v4 : FVec F S8192x64x1 .f32 := Host.absf main_arg2
  let main_cst_0 : FVec F S_ .f32 := constant S_ .f32 0x7F800000#32
  let main_v5 : FVec F S8192x64x1 .f32 := broadcastInDim S8192x64x1 ![] bcast_S_S8192x64x1 main_cst_0
  let main_v6 : IVec S8192x64x1 1 := cmpf .olt main_v4 main_v5
  let main_c_1 : IVec S_ 1 := constantI S_ 1 1#1
  let main_v7 : IVec S_ 1 := (fun x v => Host.reduce IntOp.andi x v reducesTo_S8192x64x1_S_d0_1_2 h_S_) main_v6 main_c_1
  let main_v8 : IVec S_ 1 := andi main_v3 main_v7
  let main_v9 : FVec F S8192x128 .f32 := Host.absf main_arg3
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S128x8192 .f32 := Host.absf main_arg4
  let main_cst_4 : FVec F S_ .f32 := constant S_ .f32 0x7F800000#32
  let main_v15 : FVec F S128x8192 .f32 := broadcastInDim S128x8192 ![] bcast_S_S128x8192 main_cst_4
  let main_v16 : IVec S128x8192 1 := cmpf .olt main_v14 main_v15
  fn_part1 (F := F) main_v13 main_v16
-- ==== Kernel.lean ====
abbrev S8192x64x128 : Shape := ⟨3, ![8192, 64, 128]⟩
abbrev S8192x64x1 : Shape := ⟨3, ![8192, 64, 1]⟩
abbrev S8192x128 : Shape := ⟨2, ![8192, 128]⟩
abbrev S128x8192 : Shape := ⟨2, ![128, 8192]⟩
abbrev S8192x64 : Shape := ⟨2, ![8192, 64]⟩
abbrev S1024x8x128 : Shape := ⟨3, ![1024, 8, 128]⟩
abbrev S1024x64 : Shape := ⟨2, ![1024, 64]⟩
abbrev S1024x128 : Shape := ⟨2, ![1024, 128]⟩
abbrev S128x1024 : Shape := ⟨2, ![128, 1024]⟩
abbrev S64x1024 : Shape := ⟨2, ![64, 1024]⟩
abbrev S1024x1024 : Shape := ⟨2, ![1024, 1024]⟩
abbrev S8192x8192 : Shape := ⟨2, ![8192, 8192]⟩

abbrev nBuf : Space → Nat
  | .hbm => 11
  | .vmem => 12
  | .smem => 0
  | _ => 0

abbrev bufTy : (tb : Table) → Fin (tcTables nBuf tb) → BufTy
  | .hbm, ⟨0, _⟩ => ⟨S8192x64x128, .i32⟩
  | .hbm, ⟨1, _⟩ => ⟨S8192x64x1, .f32⟩
  | .hbm, ⟨2, _⟩ => ⟨S8192x64x1, .f32⟩
  | .hbm, ⟨3, _⟩ => ⟨S8192x128, .f32⟩
  | .hbm, ⟨4, _⟩ => ⟨S128x8192, .f32⟩
  | .hbm, ⟨5, _⟩ => ⟨S8192x64, .f32⟩
  | .hbm, ⟨6, _⟩ => ⟨S8192x64, .f32⟩
  | .hbm, ⟨7, _⟩ => ⟨S8192x128, .bf16⟩
  | .hbm, ⟨8, _⟩ => ⟨S128x8192, .bf16⟩
  | .hbm, ⟨9, _⟩ => ⟨S8192x64x128, .f32⟩
  | .hbm, ⟨10, _⟩ => ⟨S8192x8192, .f32⟩
  | .local _ .vmem, ⟨0, _⟩ => ⟨S1024x8x128, .i32⟩
  | .local _ .vmem, ⟨1, _⟩ => ⟨S1024x8x128, .i32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x128, .bf16⟩
  | .local _ .vmem, ⟨7, _⟩ => ⟨S1024x128, .bf16⟩
  | .local _ .vmem, ⟨8, _⟩ => ⟨S128x1024, .bf16⟩
  | .local _ .vmem, ⟨9, _⟩ => ⟨S128x1024, .bf16⟩
  | .local _ .vmem, ⟨10, _⟩ => ⟨S1024x8x128, .f32⟩
  | .local _ .vmem, ⟨11, _⟩ => ⟨S1024x8x128, .f32⟩
  | _, _ => ⟨S8192x64x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8192x64x1_S8192x64 : S8192x64x1.ShapeCasts S8192x64
  bitsLt_bf16_f32 : FTy.bits .bf16 < FTy.bits .f32
  iota_S64x1024_d0_w32 : S64x1024.Iotas .tc 32 [0]
  iota_S64x1024_d1_w32 : S64x1024.Iotas .tc 32 [1]
  natLt_1_32 : 1 < 32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S1024x1024_S1024x8x128 : S1024x1024.ShapeCasts S1024x8x128
  inb_S1024x8x128_S1024x8x128_0_0_0 : ∀ a, (![0, 0, 0] : Fin 3 → Nat) a + S1024x8x128.size a ≤ S1024x8x128.size a
  h_S1024x8x128 : 0 < S1024x8x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  shapeCasts_S8192x64x128_S8192x8192 : S8192x64x128.ShapeCasts S8192x8192
  dot_S1024x64_S64x1024_S1024x1024_1_0_0_1_n_n_wf : DotDims.WF S1024x64 S64x1024 S1024x1024 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8x128.size a ≤ S8192x64x128.size a
  hwx0_0 : ∀ i : grid0.Coords, EltTy.bits .i32 = 32 ∨ (Rect.block (s := S8192x64x128) S1024x8x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .bf16 = 32 ∨ (Rect.block (s := S8192x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S128x8192.size a
  hwx0_4 : ∀ i : grid0.Coords, EltTy.bits .bf16 = 32 ∨ (Rect.block (s := S128x8192) S128x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x8x128.size a ≤ S8192x64x128.size a
  hwx0_5 : ∀ i : grid0.Coords, EltTy.bits .f32 = 32 ∨ (Rect.block (s := S8192x64x128) S1024x8x128.size (cc0_transform_5 i) (hinb0_5 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x64x128 : Shape := ⟨3, ![8192, 64, 128]⟩
abbrev S8192x64x1 : Shape := ⟨3, ![8192, 64, 1]⟩
abbrev S8192x128 : Shape := ⟨2, ![8192, 128]⟩
abbrev S128x8192 : Shape := ⟨2, ![128, 8192]⟩
abbrev S8192x8192 : Shape := ⟨2, ![8192, 8192]⟩

abbrev nBuf : Space → Nat
  | .hbm => 13
  | .vmem => 0
  | .smem => 0
  | _ => 0

abbrev bufTy : (tb : Table) → Fin (tcTables nBuf tb) → BufTy
  | .hbm, ⟨0, _⟩ => ⟨S8192x64x128, .i32⟩
  | .hbm, ⟨1, _⟩ => ⟨S8192x64x1, .f32⟩
  | .hbm, ⟨2, _⟩ => ⟨S8192x64x1, .f32⟩
  | .hbm, ⟨3, _⟩ => ⟨S8192x128, .f32⟩
  | .hbm, ⟨4, _⟩ => ⟨S128x8192, .f32⟩
  | .hbm, ⟨5, _⟩ => ⟨S8192x64x128, .f32⟩
  | .hbm, ⟨6, _⟩ => ⟨S8192x64x128, .f32⟩
  | .hbm, ⟨7, _⟩ => ⟨S8192x64x128, .f32⟩
  | .hbm, ⟨8, _⟩ => ⟨S8192x64x128, .f32⟩
  | .hbm, ⟨9, _⟩ => ⟨S8192x64x128, .f32⟩
  | .hbm, ⟨10, _⟩ => ⟨S8192x8192, .f32⟩
  | .hbm, ⟨11, _⟩ => ⟨S8192x8192, .f32⟩
  | .hbm, ⟨12, _⟩ => ⟨S8192x8192, .f32⟩
  | _, _ => ⟨S8192x64x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S8192x64x1_S8192x64x128_0_1_2 : S8192x64x1.BroadcastsInDim S8192x64x128 (![0, 1, 2] : Fin 3 → Fin S8192x64x128.rank)
  shapeCasts_S8192x64x128_S8192x8192 : S8192x64x128.ShapeCasts S8192x8192
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  The specification: a group-quantized matrix dequantized, plus a low-rank correction.

  The weight is an integer array `w` of 8192 rows, each of 64 groups of 128 lanes; every (row, group) has one scale
  `s` and one zero point `z`. Row `o`, column `j` of the result — column `j` being lane `j mod 128` of group
  `⌊j / 128⌋` — is

      (z[o, ⌊j/128⌋] + w[o, ⌊j/128⌋, j mod 128] · s[o, ⌊j/128⌋]) + ∑ₖ up[o, k] · down[k, j],

  on the extended reals, the integer read as the real it denotes. Both programs compute exactly this expression, in this
  grouping; they differ in how the scale and zero point of a column's group are fetched. One program broadcasts them
  along the lanes; the other multiplies the row of 64 scales by a 0/1 matrix that has a single one in each column, at the
  column's group. The law that joins the two is that a sum against such an indicator picks one term out
  (`sum_mul_indicator`): it uses `x · 1 = x`, `x · 0 = 0` and `0 + x = x` only, which hold for every extended real, so no
  finiteness of the inputs is needed.
-/
import Idealize.ShloMosaic.PureOps.Ideal
import Idealize.ShloMosaic.Lib.ValueIdx

noncomputable section

namespace Cert.DequantSvd

open Idealize.ShloMosaic Idealize.ShloMosaic.ValueIdx

/-- The group of 128 lanes a column belongs to, the column's lane inside its group, and the column of a group's lane. -/
abbrev grp (j : Fin 8192) : Fin 64 := ⟨j.val / 128, by have := j.isLt; omega⟩
abbrev lane (j : Fin 8192) : Fin 128 := ⟨j.val % 128, Nat.mod_lt _ (by decide)⟩
abbrev col (q : Fin 64) (l : Fin 128) : Fin 8192 := ⟨q.val * 128 + l.val, by have := q.isLt; have := l.isLt; omega⟩

/-- The result in the weight's own [8192, 64, 128] layout, the scale and the zero point given as [8192, 64] matrices:
    at (row `o`, group `q`, lane `l`) it is `(z[o,q] + w[o,q,l] · s[o,q]) + ∑ₖ up[o,k] · down[k, 128·q + l]`. -/
def deq3 (w : IVec ⟨3, ![8192, 64, 128]⟩ 32) (s2 z2 : (⟨2, ![8192, 64]⟩ : Shape).Idx → EReal)
    (up : (⟨2, ![8192, 128]⟩ : Shape).Idx → EReal) (down : (⟨2, ![128, 8192]⟩ : Shape).Idx → EReal) :
    (⟨3, ![8192, 64, 128]⟩ : Shape).Idx → EReal :=
  fun y => (z2 (ix2 (y 0) (y 1)) + FloatOps.sitofp (F := Ideal) .f32 (w y) * s2 (ix2 (y 0) (y 1)))
    + ∑ k : Fin 128, up (ix2 (y 0) k) * down (ix2 k (col (y 1) (y 2)))

/-- THE SPECIFICATION, as an [8192, 8192] matrix of the five arguments (scale and zero point as the [8192, 64, 1] arrays
    they are given as). -/
def dequantSvd (w : IVec ⟨3, ![8192, 64, 128]⟩ 32) (s z : (⟨3, ![8192, 64, 1]⟩ : Shape).Idx → EReal)
    (up : (⟨2, ![8192, 128]⟩ : Shape).Idx → EReal) (down : (⟨2, ![128, 8192]⟩ : Shape).Idx → EReal) :
    (⟨2, ![8192, 8192]⟩ : Shape).Idx → EReal :=
  fun i => (z (ix3 (i 0) (grp (i 1)) 0)
      + FloatOps.sitofp (F := Ideal) .f32 (w (ix3 (i 0) (grp (i 1)) (lane (i 1)))) * s (ix3 (i 0) (grp (i 1)) 0))
    + ∑ k : Fin 128, up (ix2 (i 0) k) * down (ix2 k (i 1))

/-- A sum against the indicator of one index is the term at that index, on the extended reals with no side condition. -/
theorem sum_mul_indicator {n : ℕ} (a : Fin n → EReal) (k0 : ℕ) (h : k0 < n) :
    ∑ k : Fin n, a k * (if k.val = k0 then (1 : EReal) else 0) = a ⟨k0, h⟩ := by
  rw [Finset.sum_eq_single (⟨k0, h⟩ : Fin n)]
  · rw [if_pos rfl, mul_one]
  · intro b _ hb
    rw [if_neg (fun e => hb (Fin.ext e)), mul_zero]
  · intro hn; exact absurd (Finset.mem_univ _) hn

end Cert.DequantSvd

end
-- ==== Proof.RefSide.lean ====
/-
  The reference computes the specification.

  The reference broadcasts the scale and the zero point along the 128 lanes of each group, forms `z + w · s` in the
  weight's [8192, 64, 128] layout, flattens each row's 64 × 128 entries into 8192 columns, and adds the product of the two
  low-rank factors. Read at row `o`, column `j`, the flattened array is the unflattened one at group `⌊j/128⌋`, lane
  `j mod 128` (row-major order), and the product is the sum over the contracted axis: the specification, term by term.
-/
import proofs.«116480_j54073638256714_2_alg».proof.Proof.Gen.ReferenceIdeal.Read
import proofs.«116480_j54073638256714_2_alg».proof.Proof.Spec

noncomputable section

namespace Cert.DequantSvd

open Idealize.ShloMosaic Idealize.ShloMosaic.ValueIdx Cert.ReferenceIdeal Cert.ReferenceIdeal.Read

/-- The reference's result, as a function of its five arguments, is the specification. -/
theorem reference_eq (x0 : (⟨S8192x64x128, .i32⟩ : BufTy).Contents (Elt Ideal)) (x1 x2 : (⟨S8192x64x1, .f32⟩ : BufTy).Contents (Elt Ideal))
    (x3 : (⟨S8192x128, .f32⟩ : BufTy).Contents (Elt Ideal)) (x4 : (⟨S128x8192, .f32⟩ : BufTy).Contents (Elt Ideal)) :
    val_main_v7 (F := Ideal) x0 x1 x2 x3 x4 = dequantSvd x0 x1 x2 x3 x4 := by
  funext i
  have h0 : (i 0).val < 8192 := (i 0).isLt
  have h1 : (i 1).val < 8192 := (i 1).isLt
  -- row-major order: entry (o, j) of the flattened array is entry (o, ⌊j/128⌋, j mod 128) of the unflattened one
  have e5 : idx_main_v5 i = ix3 (i 0) (grp (i 1)) (lane (i 1)) := funext fun a => Fin.ext (by
    match a with
    | ⟨0, _⟩ => show ((i 0).val * 8192 + (i 1).val) / 8192 = (i 0).val; omega
    | ⟨1, _⟩ => show ((i 0).val * 8192 + (i 1).val) / 128 % 64 = (i 1).val / 128; omega
    | ⟨2, _⟩ => show ((i 0).val * 8192 + (i 1).val) % 128 = (i 1).val % 128; omega)
  -- the broadcasts along the lanes read the one entry of the (row, group)
  have e3 : idx_main_v3 (ix3 (i 0) (grp (i 1)) (lane (i 1))) = ix3 (i 0) (grp (i 1)) 0 := funext fun a => Fin.ext (by
    match a with
    | ⟨0, _⟩ => rfl
    | ⟨1, _⟩ => rfl
    | ⟨2, _⟩ => rfl)
  have e1 : idx_main_v1 (ix3 (i 0) (grp (i 1)) (lane (i 1))) = ix3 (i 0) (grp (i 1)) 0 := funext fun a => Fin.ext (by
    match a with
    | ⟨0, _⟩ => rfl
    | ⟨1, _⟩ => rfl
    | ⟨2, _⟩ => rfl)
  have el : ∀ k : Fin 128, lidx_main_v6 i k = ix2 (i 0) k := fun k => funext fun a => Fin.ext (by
    match a with
    | ⟨0, _⟩ => rfl
    | ⟨1, _⟩ => rfl)
  have er : ∀ k : Fin 128, ridx_main_v6 i k = ix2 k (i 1) := fun k => funext fun a => Fin.ext (by
    match a with
    | ⟨0, _⟩ => rfl
    | ⟨1, _⟩ => rfl)
  rw [val_main_v7_apply, val_main_v5_apply, val_main_v4_apply, val_main_v3_apply, val_main_v2_apply, val_main_v0_apply,
    val_main_v1_apply, val_main_v6_apply, e5, e3, e1]
  simp only [el, er]
  rfl

end Cert.DequantSvd

end
-- ==== Proof.SelMatrix.lean ====
/-
  The selection matrix the kernel builds at a grid point.

  At grid column `g` the kernel forms a 64 × 1024 matrix of zeros and ones from two integer iotas: row `k`, column `c`
  holds one exactly when `k = 8·g + ⌊c / 128⌋`, that is, when `k` is the group that lane `c` of the point's column tile
  belongs to. The quotient `⌊c / 128⌋` is spelt as jnp spells a floor division of signed words: the truncated quotient,
  less one when the operands differ in sign and the remainder is not zero. For a column index `0 ≤ c < 1024` and the
  divisor `128` no correction applies and the quotient is the natural-number one; both facts are decided on the words.
-/
import proofs.«116480_j54073638256714_2_alg».proof.Proof.Gen.KernelIdeal.Skeleton
import Idealize.ShloMosaic.PureOps.Ideal
import Idealize.ShloMosaic.Lib.ValueIdx
import Idealize.ShloMosaic.Lib.Pipeline.Value

noncomputable section

namespace Cert.DequantSvd

open Idealize.ShloMosaic Idealize.ShloMosaic.ValueIdx

/-- jnp's floor division by 128 of a column index below 1024, as the kernel spells it on 32-bit words, is the word of the
    natural-number quotient. -/
theorem floorDiv128_word : ∀ c : Fin 1024,
    Scalar.select
      (IntOp.andi
        (IntOp.cmpi .ne
          (IntOp.subi (BitVec.setWidth 32 (IntOp.cmpi .sgt (BitVec.ofNat 32 c.val) 0#32))
            (BitVec.setWidth 32 (IntOp.cmpi .slt (BitVec.ofNat 32 c.val) 0#32)))
          (Scalar.subi (Scalar.extui (Scalar.cmpi .sgt 128#32 0#32)) (Scalar.extui (Scalar.cmpi .slt 128#32 0#32))))
        (IntOp.cmpi .ne (IntOp.remsi .vector (BitVec.ofNat 32 c.val) 128#32) 0#32))
      (IntOp.subi (IntOp.divsi .vector (BitVec.ofNat 32 c.val) 128#32) 1#32)
      (IntOp.divsi .vector (BitVec.ofNat 32 c.val) 128#32)
      = BitVec.ofNat 32 (c.val / 128) := by
  decide +kernel

/-- Row `k` against `8·g + q`, compared as words and widened: one when they are equal, zero otherwise. -/
theorem rowIsGroup_word : ∀ (g : Fin 8) (k : Fin 64) (q : Fin 8),
    BitVec.setWidth 32 (IntOp.cmpi .eq (BitVec.ofNat 32 k.val)
        (IntOp.addi (Scalar.muli (BitVec.ofNat 32 g.val) 8#32) (BitVec.ofNat 32 q.val)))
      = if k.val = g.val * 8 + q.val then 1#32 else 0#32 := by
  decide +kernel

/-- The words one and zero denote the reals one and zero. -/
theorem sitofp_one : FloatOps.sitofp (F := Ideal) .f32 (1#32) = (1 : EReal) := by
  show (((1#32 : BitVec 32).toInt : ℝ) : EReal) = 1
  rw [show (1#32 : BitVec 32).toInt = 1 from by decide]; simp
theorem sitofp_zero : FloatOps.sitofp (F := Ideal) .f32 (0#32) = (0 : EReal) := by
  show (((0#32 : BitVec 32).toInt : ℝ) : EReal) = 0
  rw [show (0#32 : BitVec 32).toInt = 0 from by decide]; simp

open Cert.KernelIdeal Cert.KernelIdeal.Gen in
/-- THE SELECTION MATRIX at grid point `i`: row `k`, column `c` is one when `k` is the group of lane `c` in the point's
    column tile, `k = 8·(i 1) + ⌊c / 128⌋`, and zero otherwise. -/
theorem sel_apply (i : grid0.Coords) (k : Fin 64) (c : Fin 1024) :
    k0_pay2 (F := Ideal) i (ix2 k c) = if k.val = (i 1).val * 8 + c.val / 128 then (1 : EReal) else 0 := by
  unfold k0_pay2
  dsimp only
  simp only [sitofp_apply, extui_apply, cmpi, addi, subi, andi, select, divsi, remsi, broadcast]
  rw [iota_single_apply .tc S64x1024 32 0 iota_S64x1024_d0_w32, iota_single_apply .tc S64x1024 32 1 iota_S64x1024_d1_w32]
  show FloatOps.sitofp (F := Ideal) .f32 (BitVec.setWidth 32 (IntOp.cmpi .eq (BitVec.ofNat 32 k.val)
      (IntOp.addi (Scalar.muli (BitVec.ofNat 32 (i 1).val) 8#32) _))) = _
  rw [floorDiv128_word c]
  have hq : c.val / 128 < 8 := by have := c.isLt; omega
  rw [show BitVec.ofNat 32 (c.val / 128) = BitVec.ofNat 32 (⟨c.val / 128, hq⟩ : Fin 8).val from rfl,
    rowIsGroup_word (i 1) k ⟨c.val / 128, hq⟩]
  show FloatOps.sitofp (F := Ideal) .f32 (if k.val = (i 1).val * 8 + c.val / 128 then 1#32 else 0#32) = _
  split_ifs
  · exact sitofp_one
  · exact sitofp_zero

end Cert.DequantSvd

end
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.PointValue.lean ====
/-
  What one grid point stores, entry by entry.

  At grid point `i` the body holds a tile of 1024 rows: the integer weights of 8 groups of 128 lanes (`x0`), the rows'
  64 scales and 64 zero points (`x1`, `x2`), 1024 rows of the left factor (`x3`) and 1024 columns of the right factor
  (`x4`). It multiplies the scales, and the zero points, by the selection matrix of the point's column tile, which gives a
  1024 × 1024 matrix whose column `c` repeats the value of group `8·(i 1) + ⌊c/128⌋`; it multiplies the two factors;
  it cuts each 1024-wide row of these three matrices into 8 groups of 128 lanes; and it stores `(z + w · s) + correction`.
  So the entry at (row `r`, group `b`, lane `l`) is

      (x2[r, 8·(i 1) + b] + x0[r, b, l] · x1[r, 8·(i 1) + b]) + ∑ₖ x3[r, k] · x4[k, 128·b + l].
-/
import proofs.«116480_j54073638256714_2_alg».proof.Proof.Gen.KernelIdeal.Skeleton
import proofs.«116480_j54073638256714_2_alg».proof.Proof.Spec
import proofs.«116480_j54073638256714_2_alg».proof.Proof.SelMatrix
import proofs.«116480_j54073638256714_2_alg».proof.Proof.LibPlainDot
import Idealize.ShloMosaic.Lib.Pipeline.Value

noncomputable section

namespace Cert.DequantSvd

open Idealize.ShloMosaic Idealize.ShloMosaic.ValueIdx Cert.KernelIdeal Cert.KernelIdeal.Gen

/-- The grid has 8 column tiles. -/
theorem gridCol_lt (i : grid0.Coords) : (i 1).val < 8 := (i 1).isLt

/-- A 1024-wide row cut into 8 groups of 128 lanes: entry (r, b, l) is entry (r, 128·b + l) of the matrix, by row-major
    order. -/
theorem cut_apply (v : FVec Ideal S1024x1024 .f32) (r : Fin 1024) (b : Fin 8) (l : Fin 128) :
    shapeCast S1024x8x128 v shapeCasts_S1024x1024_S1024x8x128 (ix3 r b l)
      = v (ix2 r (⟨b.val * 128 + l.val, by have := b.isLt; have := l.isLt; omega⟩ : Fin 1024)) := by
  refine shapeCast_apply v shapeCasts_S1024x1024_S1024x8x128 (ix3 r b l) _ ?_
  rw [Shape.rowMajor_val_two, Shape.rowMajor_val_three]
  show r.val * 1024 + (b.val * 128 + l.val) = (r.val * 8 + b.val) * 128 + l.val
  omega

/-- The two products of the kernel are plain matrix products. -/
theorem dot64_plain : dot_S1024x64_S64x1024_S1024x1024_1_0_0_1_n_n = DotDims.plain 1024 64 1024 := rfl
theorem dot128_plain : dot_S1024x128_S128x1024_S1024x1024_1_0_0_1_n_n = DotDims.plain 1024 128 1024 := rfl

/-- The per-group values spread over a column tile: the product of the rows' 64 per-group values with the selection
    matrix has, in column `c`, the value of group `8·(i 1) + ⌊c/128⌋`. -/
theorem spread_apply (i : grid0.Coords) (x : FVec Ideal S1024x64 .f32) (r : Fin 1024) (c : Fin 1024) :
    matmul dot_S1024x64_S64x1024_S1024x1024_1_0_0_1_n_n (some .fp32) x (k0_pay2 (F := Ideal) i)
        (constant (F := Ideal) S1024x1024 .f32 0x00000000#32) (ix2 r c)
      = x (ix2 r (⟨(i 1).val * 8 + c.val / 128, by have := gridCol_lt i; have := c.isLt; omega⟩ : Fin 64)) := by
  rw [dot64_plain]
  refine (Cert.LibPlainDot.matmul_plain_zero_apply (some .fp32) x (k0_pay2 (F := Ideal) i) r c).trans ?_
  simp only [sel_apply]
  exact sum_mul_indicator (fun k : Fin 64 => x (ix2 r k)) _ _

/-- THE STORED TILE of grid point `i`, at (row `r`, group `b`, lane `l`). -/
theorem stored_apply (i : grid0.Coords) (x0 : Vec Ideal S1024x8x128 .i32) (x1 x2 : Vec Ideal S1024x64 .f32)
    (x3 : Vec Ideal S1024x128 .bf16) (x4 : Vec Ideal S128x1024 .bf16) (r : Fin 1024) (b : Fin 8) (l : Fin 128) :
    k0_pay1 (F := Ideal) (k0_pay3 i x1) (k0_pay4 i x2) x0 x3 x4 (ix3 r b l)
      = (x2 (ix2 r (⟨(i 1).val * 8 + b.val, by have := gridCol_lt i; have := b.isLt; omega⟩ : Fin 64))
          + FloatOps.sitofp (F := Ideal) .f32 (x0 (ix3 r b l))
            * x1 (ix2 r (⟨(i 1).val * 8 + b.val, by have := gridCol_lt i; have := b.isLt; omega⟩ : Fin 64)))
        + ∑ k : Fin 128, x3 (ix2 r k) * x4 (ix2 k (⟨b.val * 128 + l.val, by have := b.isLt; have := l.isLt; omega⟩ : Fin 1024)) := by
  have hb : b.val < 8 := b.isLt
  have hl : l.val < 128 := l.isLt
  unfold k0_pay1 k0_pay3 k0_pay4
  dsimp only
  simp only [shapeCast_self]
  rw [addf_apply, addf_apply, mulf_apply, sitofp_apply, cut_apply, cut_apply, cut_apply, spread_apply, spread_apply,
    dot128_plain]
  -- the group of lane 128·b + l of the tile is b
  have e : ∀ h h', (⟨(i 1).val * 8 + (⟨b.val * 128 + l.val, h⟩ : Fin 1024).val / 128, h'⟩ : Fin 64)
      = ⟨(i 1).val * 8 + b.val, by have := gridCol_lt i; omega⟩ :=
    fun _ _ => Fin.ext (by show (i 1).val * 8 + (b.val * 128 + l.val) / 128 = (i 1).val * 8 + b.val; omega)
  rw [e]
  refine congrArg₂ (· + ·) rfl ?_
  exact Cert.LibPlainDot.matmul_plain_zero_apply (φ₁ := .bf16) (φ₂ := .bf16) none x3 x4 r
    (⟨b.val * 128 + l.val, by omega⟩ : Fin 1024)

/-- Row `r` of row tile `t0`, group `b` of column tile `g`, and column `c` of column tile `g`, in the whole arrays. -/
abbrev rowAt (t0 : Fin 8) (r : Fin 1024) : Fin 8192 := ⟨t0.val * 1024 + r.val, by have := t0.isLt; have := r.isLt; omega⟩
abbrev grpAt (g : Fin 8) (b : Fin 8) : Fin 64 := ⟨g.val * 8 + b.val, by have := g.isLt; have := b.isLt; omega⟩
abbrev colAt (g : Fin 8) (c : Fin 1024) : Fin 8192 := ⟨g.val * 1024 + c.val, by have := g.isLt; have := c.isLt; omega⟩

/-- THE STORED TILE IS A TILE OF THE RESULT. If the five tiles a point holds are the tiles of five whole arrays at row
    tile `t0` and column tile `i 1` — the weights' rows and groups, the rows of the scale, zero-point and left-factor
    matrices, the columns of the right factor — then what the point stores at (row `r`, group `b`, lane `l`) is the result
    `deq3` of the whole arrays at (row `1024·t0 + r`, group `8·(i 1) + b`, lane `l`): lane `l` of group `8·(i 1) + b` is
    column `1024·(i 1) + 128·b + l`, the column the tile of the right factor supplies. -/
theorem stored_is_tile (i : grid0.Coords) (t0 : Fin 8)
    (x0 : Vec Ideal S1024x8x128 .i32) (x1 x2 : Vec Ideal S1024x64 .f32) (x3 : Vec Ideal S1024x128 .bf16)
    (x4 : Vec Ideal S128x1024 .bf16)
    (A0 : IVec ⟨3, ![8192, 64, 128]⟩ 32) (A1 A2 : (⟨2, ![8192, 64]⟩ : Shape).Idx → EReal)
    (A3 : (⟨2, ![8192, 128]⟩ : Shape).Idx → EReal) (A4 : (⟨2, ![128, 8192]⟩ : Shape).Idx → EReal)
    (h0 : ∀ (r : Fin 1024) (b : Fin 8) (l : Fin 128), x0 (ix3 r b l) = A0 (ix3 (rowAt t0 r) (grpAt (i 1) b) l))
    (h1 : ∀ (r : Fin 1024) (q : Fin 64), x1 (ix2 r q) = A1 (ix2 (rowAt t0 r) q))
    (h2 : ∀ (r : Fin 1024) (q : Fin 64), x2 (ix2 r q) = A2 (ix2 (rowAt t0 r) q))
    (h3 : ∀ (r : Fin 1024) (k : Fin 128), x3 (ix2 r k) = A3 (ix2 (rowAt t0 r) k))
    (h4 : ∀ (k : Fin 128) (c : Fin 1024), x4 (ix2 k c) = A4 (ix2 k (colAt (i 1) c)))
    (r : Fin 1024) (b : Fin 8) (l : Fin 128) :
    k0_pay1 (F := Ideal) (k0_pay3 i x1) (k0_pay4 i x2) x0 x3 x4 (ix3 r b l)
      = deq3 A0 A1 A2 A3 A4 (ix3 (rowAt t0 r) (grpAt (i 1) b) l) := by
  have hb : b.val < 8 := b.isLt
  have hl : l.val < 128 := l.isLt
  have hg := gridCol_lt i
  rw [stored_apply, h0, h1, h2]
  simp only [h3, h4]
  have ec : ∀ h, colAt (i 1) (⟨b.val * 128 + l.val, h⟩ : Fin 1024) = col (grpAt (i 1) b) l := fun _ =>
    Fin.ext (by show (i 1).val * 1024 + (b.val * 128 + l.val) = ((i 1).val * 8 + b.val) * 128 + l.val; omega)
  simp only [ec]
  rfl

end Cert.DequantSvd

end
-- ==== Proof.KernelArray.lean ====
/-
  From the grid points' tiles to the whole array.

  The grid has 8 × 8 points; point (t0, t1) holds rows 1024·t0 … 1024·t0 + 1023 of the weights, of the scale and zero-point
  matrices and of the left factor, groups 8·t1 … 8·t1 + 7 of the weights, and columns 1024·t1 … 1024·t1 + 1023 of the right
  factor; it writes back rows 1024·t0 …, groups 8·t1 … of the result. So every tile a point reads is a tile of a whole
  array, what it stores is the same tile of the result `deq3` of the whole arrays (`stored_is_tile`), and since the 64
  written tiles cover the [8192, 64, 128] array, the array ends holding `deq3` of the arrays the region was given.
-/
import proofs.«116480_j54073638256714_2_alg».proof.Proof.FrameKernelIdeal
import proofs.«116480_j54073638256714_2_alg».proof.Proof.PointValue
import Idealize.ShloMosaic.Lib.Pipeline.Value

noncomputable section

namespace Cert.DequantSvd

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The row tile and the column tile of a grid point. -/
abbrev rowTile (t : Fin cfg0.N) : Fin 8 := (grid0.coords t) 0
abbrev colTile (t : Fin cfg0.N) : Fin 8 := (grid0.coords t) 1

/-- Which block of its array each window holds at a point, decided over the 64 points: the weights and the result move
    with both tiles, the scale, zero-point and left-factor matrices with the row tile, the right factor with the column
    tile. -/
theorem tiles : ∀ t : Fin cfg0.N,
    win0_0.index t (0 : Fin 3) = (rowTile t).val ∧ win0_0.index t (1 : Fin 3) = (colTile t).val ∧ win0_0.index t (2 : Fin 3) = 0
    ∧ win0_1.index t (0 : Fin 2) = (rowTile t).val ∧ win0_1.index t (1 : Fin 2) = 0
    ∧ win0_2.index t (0 : Fin 2) = (rowTile t).val ∧ win0_2.index t (1 : Fin 2) = 0
    ∧ win0_3.index t (0 : Fin 2) = (rowTile t).val ∧ win0_3.index t (1 : Fin 2) = 0
    ∧ win0_4.index t (0 : Fin 2) = 0 ∧ win0_4.index t (1 : Fin 2) = (colTile t).val
    ∧ win0_5.index t (0 : Fin 3) = (rowTile t).val ∧ win0_5.index t (1 : Fin 3) = (colTile t).val ∧ win0_5.index t (2 : Fin 3) = 0 :=
  (by decide +kernel : ∀ t : Fin grid0.N, _)

/-- Every (row tile, column tile) is some point's. -/
theorem tile_onto : ∀ (q0 q1 : Fin 8), ∃ t : Fin cfg0.N, win0_5.index t = ![q0.val, q1.val, 0] :=
  (by decide +kernel : ∀ (q0 q1 : Fin 8), ∃ t : Fin grid0.N, win0_5.index t = ![q0.val, q1.val, 0])

/-! ## Each tile a point holds is a tile of a whole array -/

theorem blk0_apply (c : Dev nD) (t : Fin cfg0.N) (r : Fin 1024) (b : Fin 8) (l : Fin 128) :
    (iblk m c 0 t : Vec Ideal S1024x8x128 .i32) (ix3 r b l) = (V m c main_arg0 : S8192x64x128.Idx → _) (ix3 (rowAt (rowTile t) r) (grpAt (colTile t) b) l) := by
  obtain ⟨e00, e01, e02, e10, e11, e20, e21, e30, e31, e40, e41, e50, e51, e52⟩ := tiles t
  unfold iblk
  rw [View.read_apply]
  show V m c main_arg0 _ = V m c main_arg0 _
  congr 1
  funext a; apply Fin.ext
  match a with
  | ⟨0, _⟩ => show win0_0.index t (0 : Fin 3) * 1024 + 1 * r.val = (rowTile t).val * 1024 + r.val; omega
  | ⟨1, _⟩ => show win0_0.index t (1 : Fin 3) * 8 + 1 * b.val = (colTile t).val * 8 + b.val; omega
  | ⟨2, _⟩ => show win0_0.index t (2 : Fin 3) * 128 + 1 * l.val = l.val; omega

theorem blk1_apply (c : Dev nD) (t : Fin cfg0.N) (r : Fin 1024) (q : Fin 64) :
    (iblk m c 1 t : Vec Ideal S1024x64 .f32) (ix2 r q) = (V m c main_v0 : S8192x64.Idx → _) (ix2 (rowAt (rowTile t) r) q) := by
  obtain ⟨e00, e01, e02, e10, e11, e20, e21, e30, e31, e40, e41, e50, e51, e52⟩ := tiles t
  unfold iblk
  rw [View.read_apply]
  show V m c main_v0 _ = V m c main_v0 _
  congr 1
  funext a; apply Fin.ext
  match a with
  | ⟨0, _⟩ => show win0_1.index t (0 : Fin 2) * 1024 + 1 * r.val = (rowTile t).val * 1024 + r.val; omega
  | ⟨1, _⟩ => show win0_1.index t (1 : Fin 2) * 64 + 1 * q.val = q.val; omega

theorem blk2_apply (c : Dev nD) (t : Fin cfg0.N) (r : Fin 1024) (q : Fin 64) :
    (iblk m c 2 t : Vec Ideal S1024x64 .f32) (ix2 r q) = (V m c main_v1 : S8192x64.Idx → _) (ix2 (rowAt (rowTile t) r) q) := by
  obtain ⟨e00, e01, e02, e10, e11, e20, e21, e30, e31, e40, e41, e50, e51, e52⟩ := tiles t
  unfold iblk
  rw [View.read_apply]
  show V m c main_v1 _ = V m c main_v1 _
  congr 1
  funext a; apply Fin.ext
  match a with
  | ⟨0, _⟩ => show win0_2.index t (0 : Fin 2) * 1024 + 1 * r.val = (rowTile t).val * 1024 + r.val; omega
  | ⟨1, _⟩ => show win0_2.index t (1 : Fin 2) * 64 + 1 * q.val = q.val; omega

theorem blk3_apply (c : Dev nD) (t : Fin cfg0.N) (r : Fin 1024) (k : Fin 128) :
    (iblk m c 3 t : Vec Ideal S1024x128 .bf16) (ix2 r k) = (V m c main_v2 : S8192x128.Idx → _) (ix2 (rowAt (rowTile t) r) k) := by
  obtain ⟨e00, e01, e02, e10, e11, e20, e21, e30, e31, e40, e41, e50, e51, e52⟩ := tiles t
  unfold iblk
  rw [View.read_apply]
  show V m c main_v2 _ = V m c main_v2 _
  congr 1
  funext a; apply Fin.ext
  match a with
  | ⟨0, _⟩ => show win0_3.index t (0 : Fin 2) * 1024 + 1 * r.val = (rowTile t).val * 1024 + r.val; omega
  | ⟨1, _⟩ => show win0_3.index t (1 : Fin 2) * 128 + 1 * k.val = k.val; omega

theorem blk4_apply (c : Dev nD) (t : Fin cfg0.N) (k : Fin 128) (cc : Fin 1024) :
    (iblk m c 4 t : Vec Ideal S128x1024 .bf16) (ix2 k cc) = (V m c main_v3 : S128x8192.Idx → _) (ix2 k (colAt (colTile t) cc)) := by
  obtain ⟨e00, e01, e02, e10, e11, e20, e21, e30, e31, e40, e41, e50, e51, e52⟩ := tiles t
  unfold iblk
  rw [View.read_apply]
  show V m c main_v3 _ = V m c main_v3 _
  congr 1
  funext a; apply Fin.ext
  match a with
  | ⟨0, _⟩ => show win0_4.index t (0 : Fin 2) * 128 + 1 * k.val = k.val; omega
  | ⟨1, _⟩ => show win0_4.index t (1 : Fin 2) * 1024 + 1 * cc.val = (colTile t).val * 1024 + cc.val; omega

/-! ## What a point writes back, and the array after the region -/

/-- The result in the weights' layout, of the five arrays as the region finds them. -/
abbrev regionResult (c : Dev nD) : S8192x64x128.Idx → EReal :=
  deq3 (V m c main_arg0) (V m c main_v0) (V m c main_v1) (V m c main_v2) (V m c main_v3)

/-- WHAT POINT `t` WRITES BACK is its tile of the result. -/
theorem flushed5_eq (c : Dev nD) (t : Fin cfg0.N) :
    (dats m 0 c).flushed 5 t = ((cfg0.win 5).blk t).view.read (Elt Ideal) (regionResult m c) := by
  show (cfg0.win 5).cut (grid0.coords t) ((dats m 0 c).after 5 t) = _
  rw [after0_5]
  unfold out0_5
  rw [View.canon_unit_zero zero3]
  simp only [View.ld_unit_zero (S := S1024x64) zero2, View.ld_unit_zero (S := S1024x8x128) zero3,
    View.ld_unit_zero (S := S1024x128) zero2, View.ld_unit_zero (S := S128x1024) zero2]
  obtain ⟨e00, e01, e02, e10, e11, e20, e21, e30, e31, e40, e41, e50, e51, e52⟩ := tiles t
  funext j
  show k0_pay1 (F := Ideal) (k0_pay3 (grid0.coords t) (iblk m c 1 t)) (k0_pay4 (grid0.coords t) (iblk m c 2 t))
      (iblk m c 0 t) (iblk m c 3 t) (iblk m c 4 t) j
    = regionResult m c (((cfg0.win 5).blk t).view.emb j)
  have hj : (((cfg0.win 5).blk t).view.emb j : S8192x64x128.Idx)
      = ix3 (rowAt (rowTile t) (j 0)) (grpAt (colTile t) (j 1)) (j 2) := by
    funext a; apply Fin.ext
    match a with
    | ⟨0, _⟩ => show win0_5.index t (0 : Fin 3) * 1024 + 1 * (j 0).val = (rowTile t).val * 1024 + (j 0).val; omega
    | ⟨1, _⟩ => show win0_5.index t (1 : Fin 3) * 8 + 1 * (j 1).val = (colTile t).val * 8 + (j 1).val; omega
    | ⟨2, _⟩ => show win0_5.index t (2 : Fin 3) * 128 + 1 * (j 2).val = (j 2).val; omega
  rw [hj]
  refine Eq.trans (congrArg _ (eq_ix3 j)) ?_
  exact stored_is_tile (grid0.coords t) (rowTile t) (iblk m c 0 t) (iblk m c 1 t) (iblk m c 2 t) (iblk m c 3 t) (iblk m c 4 t)
    (V m c main_arg0) (V m c main_v0) (V m c main_v1) (V m c main_v2) (V m c main_v3)
    (blk0_apply m c t) (blk1_apply m c t) (blk2_apply m c t) (blk3_apply m c t) (blk4_apply m c t) (j 0) (j 1) (j 2)

/-- An index of the array is in point `t`'s tile iff each coordinate is in the tile's range on its axis. -/
theorem mem_blk5 (t : Fin cfg0.N) (y : S8192x64x128.Idx) :
    y ∈ ((cfg0.win 5).blk t).view.set ↔ ∀ a : Fin 3, win0_5.index t a * S1024x8x128.size a ≤ (y a).val
      ∧ (y a).val < win0_5.index t a * S1024x8x128.size a + S1024x8x128.size a := by
  show y ∈ ((View.whole main_v4).slice (win0_5.rect t)).set ↔ _
  rw [View.set_slice_whole, Rect.mem_set_unit]
  exact Iff.rfl

/-- THE ARRAY AFTER THE REGION: the 64 tiles cover it — row `o`, group `q` is in the tile of the point
    (⌊o/1024⌋, ⌊q/8⌋) — so it holds the result of the arrays the region was given. -/
theorem final5 (c : Dev nD) : (dats m 0 c).arrAt 5 cfg0.N = regionResult m c :=
  (dats m 0 c).arrAt_eq_of_cover 5 (regionResult m c) (fun t _ => flushed5_eq m c t) fun y => by
    have h0 : (y 0).val < 8192 := (y 0).isLt
    have h1 : (y 1).val < 64 := (y 1).isLt
    have h2 : (y 2).val < 128 := (y 2).isLt
    obtain ⟨t, ht⟩ := tile_onto ⟨(y 0).val / 1024, by omega⟩ ⟨(y 1).val / 8, by omega⟩
    have q0 : win0_5.index t (0 : Fin 3) = (y 0).val / 1024 := congrFun ht 0
    have q1 : win0_5.index t (1 : Fin 3) = (y 1).val / 8 := congrFun ht 1
    have q2 : win0_5.index t (2 : Fin 3) = 0 := congrFun ht 2
    refine ⟨t, flush0_5 t, ?_⟩
    rw [mem_blk5]
    intro a
    match a with
    | ⟨0, _⟩ => show win0_5.index t (0 : Fin 3) * 1024 ≤ (y 0).val ∧ (y 0).val < win0_5.index t (0 : Fin 3) * 1024 + 1024; omega
    | ⟨1, _⟩ => show win0_5.index t (1 : Fin 3) * 8 ≤ (y 1).val ∧ (y 1).val < win0_5.index t (1 : Fin 3) * 8 + 8; omega
    | ⟨2, _⟩ => show win0_5.index t (2 : Fin 3) * 128 ≤ (y 2).val ∧ (y 2).val < win0_5.index t (2 : Fin 3) * 128 + 128; omega

end Cert.DequantSvd

end
-- ==== Proof.KernelRun.lean ====
/-
  The kernel program's run, read back as the specification.

  Around its one region the kernel program runs five host operations. Before the region it drops the unit axis of the scale
  and of the zero point, [8192, 64, 1] to [8192, 64], and casts the two low-rank factors to a narrower float format, which
  changes nothing on the extended reals. After the region it flattens the [8192, 64, 128] result to [8192, 8192]: by
  row-major order entry (o, j) of the flat array is entry (o, ⌊j/128⌋, j mod 128) of the array the region left. With the
  array after the region known (`final5`), the program's result is the specification of its five arguments.
-/
import proofs.«116480_j54073638256714_2_alg».proof.Proof.KernelArray
import Idealize.ShloMosaic.Lib.StableHlo.Run

noncomputable section

namespace Cert.DequantSvd

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.GenP

variable (m : (ℓ : Loc nD τ sig) → Buf (Elt Ideal) ℓ) (ρ : Dev nD → PrngReg)

/-! ## The arrays the region is given -/

/-- The scale and the zero point reach the region with their unit axis dropped. -/
theorem V_scale (c : Dev nD) : (V m c main_v0 : S8192x64.Idx → EReal)
    = shapeCast S8192x64 (m ((c : Thread nD τ).loc main_arg1)) shapeCasts_S8192x64x1_S8192x64 := by
  show StableHlo.after hostOps0 (fun b => m (c, b)) (Proc.devRef .tc main_v0) = _
  after_results
  rfl
theorem V_zero (c : Dev nD) : (V m c main_v1 : S8192x64.Idx → EReal)
    = shapeCast S8192x64 (m ((c : Thread nD τ).loc main_arg2)) shapeCasts_S8192x64x1_S8192x64 := by
  show StableHlo.after hostOps0 (fun b => m (c, b)) (Proc.devRef .tc main_v1) = _
  after_results
  rfl

/-- The two factors reach it cast to a narrower format: on the extended reals, as they are. -/
theorem V_up (c : Dev nD) : (V m c main_v2 : S8192x128.Idx → EReal) = m ((c : Thread nD τ).loc main_arg3) := by
  show StableHlo.after hostOps0 (fun b => m (c, b)) (Proc.devRef .tc main_v2) = _
  after_results
  rfl
theorem V_down (c : Dev nD) : (V m c main_v3 : S128x8192.Idx → EReal) = m ((c : Thread nD τ).loc main_arg4) := by
  show StableHlo.after hostOps0 (fun b => m (c, b)) (Proc.devRef .tc main_v3) = _
  after_results
  rfl

/-- Dropping the unit axis: entry (o, q) of the matrix is entry (o, q, 0) of the array. -/
theorem squeeze_apply (x : S8192x64x1.Idx → EReal) (o : Fin 8192) (q : Fin 64) :
    shapeCast S8192x64 x shapeCasts_S8192x64x1_S8192x64 (ix2 o q) = x (ix3 o q 0) := by
  refine shapeCast_apply x shapeCasts_S8192x64x1_S8192x64 (ix2 o q) (ix3 o q 0) ?_
  rw [Shape.rowMajor_val_three, Shape.rowMajor_val_two]
  show (o.val * 64 + q.val) * 1 + 0 = o.val * 64 + q.val
  omega

/-- Flattening: entry (o, j) of the flat array is entry (o, ⌊j/128⌋, j mod 128) of the [8192, 64, 128] one. -/
theorem flatten_apply (x : S8192x64x128.Idx → EReal) (i : S8192x8192.Idx) :
    shapeCast S8192x8192 x shapeCasts_S8192x64x128_S8192x8192 i = x (ix3 (i 0) (grp (i 1)) (lane (i 1))) := by
  refine shapeCast_apply x shapeCasts_S8192x64x128_S8192x8192 i (ix3 (i 0) (grp (i 1)) (lane (i 1))) ?_
  rw [Shape.rowMajor_val_three, Shape.rowMajor_val_two]
  have h1 : (i 1).val < 8192 := (i 1).isLt
  show ((i 0).val * 64 + (i 1).val / 128) * 128 + (i 1).val % 128 = (i 0).val * 8192 + (i 1).val
  omega

/-! ## The result -/

/-- The specification of the program's five arguments on core `c`. -/
abbrev spec (c : Dev nD) : S8192x8192.Idx → EReal :=
  dequantSvd (m ((c : Thread nD τ).loc main_arg0)) (m ((c : Thread nD τ).loc main_arg1)) (m ((c : Thread nD τ).loc main_arg2))
    (m ((c : Thread nD τ).loc main_arg3)) (m ((c : Thread nD τ).loc main_arg4))

/-- The specification's expression with the column given as a group and a lane: at (row `o`, group `q`, lane `l`),
    `(z[o,q] + w[o,q,l] · s[o,q]) + ∑ₖ up[o,k] · down[k, 128·q + l]`. -/
def atGroupLane (w : IVec ⟨3, ![8192, 64, 128]⟩ 32) (s z : (⟨3, ![8192, 64, 1]⟩ : Shape).Idx → EReal)
    (up : (⟨2, ![8192, 128]⟩ : Shape).Idx → EReal) (down : (⟨2, ![128, 8192]⟩ : Shape).Idx → EReal)
    (o : Fin 8192) (q : Fin 64) (l : Fin 128) : EReal :=
  (z (ix3 o q 0) + FloatOps.sitofp (F := Ideal) .f32 (w (ix3 o q l)) * s (ix3 o q 0))
    + ∑ k : Fin 128, up (ix2 o k) * down (ix2 k (col q l))

/-- With the scale and the zero point given as [8192, 64, 1] arrays and squeezed, the result in the weights' layout is that
    expression. -/
theorem deq3_squeezed (w : IVec S8192x64x128 32) (s z : S8192x64x1.Idx → EReal) (up : S8192x128.Idx → EReal)
    (down : S128x8192.Idx → EReal) (o : Fin 8192) (q : Fin 64) (l : Fin 128) :
    deq3 w (shapeCast S8192x64 s shapeCasts_S8192x64x1_S8192x64) (shapeCast S8192x64 z shapeCasts_S8192x64x1_S8192x64) up down
        (ix3 o q l) = atGroupLane w s z up down o q l := by
  show (shapeCast S8192x64 z shapeCasts_S8192x64x1_S8192x64 (ix2 o q)
        + FloatOps.sitofp (F := Ideal) .f32 (w (ix3 o q l)) * shapeCast S8192x64 s shapeCasts_S8192x64x1_S8192x64 (ix2 o q))
      + ∑ k : Fin 128, up (ix2 o k) * down (ix2 k (col q l)) = _
  rw [squeeze_apply, squeeze_apply]
  rfl

/-- The array the region leaves, at (row `o`, group `q`, lane `l`), in terms of the program's arguments. -/
theorem region_at (c : Dev nD) (o : Fin 8192) (q : Fin 64) (l : Fin 128) :
    regionResult m c (ix3 o q l)
      = atGroupLane (m ((c : Thread nD τ).loc main_arg0)) (m ((c : Thread nD τ).loc main_arg1))
          (m ((c : Thread nD τ).loc main_arg2)) (m ((c : Thread nD τ).loc main_arg3)) (m ((c : Thread nD τ).loc main_arg4)) o q l := by
  show deq3 (V m c main_arg0) (V m c main_v0) (V m c main_v1) (V m c main_v2) (V m c main_v3) (ix3 o q l) = _
  rw [V_main_arg0, V_scale, V_zero, V_up, V_down]
  exact deq3_squeezed _ _ _ _ _ o q l

/-- The array the region leaves, flattened, is the specification of the arguments. -/
theorem flat_result (c : Dev nD) :
    shapeCast S8192x8192 (regionResult m c) shapeCasts_S8192x64x128_S8192x8192 = spec m c := by
  funext i
  have h1 : (i 1).val < 8192 := (i 1).isLt
  -- lane (j mod 128) of group ⌊j/128⌋ is column j
  have ec : col (grp (i 1)) (lane (i 1)) = i 1 :=
    Fin.ext (by show (i 1).val / 128 * 128 + (i 1).val % 128 = (i 1).val; omega)
  refine (flatten_apply (regionResult m c) i).trans ((region_at m c (i 0) (grp (i 1)) (lane (i 1))).trans ?_)
  unfold atGroupLane
  rw [ec]
  rfl

/-- What the host operations after the region leave in the result buffer. -/
theorem tail_result (c : Dev nD) :
    Pipeline.afterTail₀ cfgs (dats m) 0 (V0 m) [hostOps1] c main_v5 = spec m c := by
  have hw := (Pipeline.withArrays_arr spec0 launch0.win.arr_inj c (V0 m c) (fun w => (dats m 0 c).arrAt w cfg0.N) 5).trans
    (final5 m c)
  unfold Pipeline.afterTail₀
  show StableHlo.after hostOps1 _ (Proc.devRef .tc main_v5) = _
  after_results
  exact (show _ = shapeCast S8192x8192 (Pipeline.withArrays spec0 c (V0 m c) (fun w => (dats m 0 c).arrAt w cfg0.N)
      (Proc.devRef .tc (Pipeline.arrRef spec0 5))) shapeCasts_S8192x64x128_S8192x8192 from rfl).trans
    ((congrArg (fun x => shapeCast S8192x8192 x shapeCasts_S8192x64x128_S8192x8192) hw).trans (flat_result m c))

/-- THE RUN: every weakly fair execution of the kernel program ends with its result at the specification of its arguments,
    and the arguments as they were. -/
theorem kernel_run : θ_run defs (onTc (τ := τ) (main (F := Ideal))) ⟨m, fun _ => 0, ρ⟩ fun r => ∀ c : Dev nD,
      r.2.mem ((c.tc : Thread nD τ).loc main_v5) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.DequantSvd

end
-- ==== Proof.lean ====
/- The proof of `Cert.Claim` (proofs.«116480_j54073638256714_2_alg».proof.Defs): a kernel that dequantizes a group-quantized weight matrix and adds a
   low-rank correction, against the plain jnp expression of the same matrix.

   Both programs produce, at row `o` and column `j` of an [8192, 8192] matrix,

       (z[o, ⌊j/128⌋] + w[o, ⌊j/128⌋, j mod 128] · s[o, ⌊j/128⌋]) + ∑ₖ up[o, k] · down[k, j]

   (Proof/Spec.lean). The reference broadcasts the per-group scale `s` and zero point `z` along the lanes, flattens, and adds
   the product of the factors (Proof/RefSide.lean). The kernel works on an 8 × 8 grid of tiles of 1024 rows by 8 groups: at
   each point it spreads the rows' per-group values over the tile's 1024 lanes by multiplying them with a 0/1 matrix that has
   one 1 per column, at the column's group (Proof/SelMatrix.lean), and stores the tile of the same expression
   (Proof/PointValue.lean); the 64 tiles cover the array (Proof/KernelArray.lean), and the host operations around the region
   only change layouts (Proof/KernelRun.lean). The one law that joins the two sides is that a sum against the indicator of
   an index is the term at that index; it holds for every extended real, so the finiteness of the inputs is never used.
   The idealization pass rewrote nothing in the kernel, so `preserves` is trivial. The three frames are the kernel
   programs' frame certificates and the reference's run with its result dropped. -/
import proofs.«116480_j54073638256714_2_alg».proof.Defs
import proofs.«116480_j54073638256714_2_alg».proof.Proof.Gen.Kernel
import proofs.«116480_j54073638256714_2_alg».proof.Proof.Gen.Kernel.Skeleton
import proofs.«116480_j54073638256714_2_alg».proof.Proof.Gen.Kernel.Launch
import proofs.«116480_j54073638256714_2_alg».proof.Proof.Gen.Kernel.Points
import proofs.«116480_j54073638256714_2_alg».proof.Proof.FrameKernel
import proofs.«116480_j54073638256714_2_alg».proof.Proof.Gen.KernelIdeal
import proofs.«116480_j54073638256714_2_alg».proof.Proof.Gen.KernelIdeal.Skeleton
import proofs.«116480_j54073638256714_2_alg».proof.Proof.Gen.KernelIdeal.Launch
import proofs.«116480_j54073638256714_2_alg».proof.Proof.Gen.KernelIdeal.Points
import proofs.«116480_j54073638256714_2_alg».proof.Proof.FrameKernelIdeal
import proofs.«116480_j54073638256714_2_alg».proof.Proof.Gen.ReferenceIdeal
import proofs.«116480_j54073638256714_2_alg».proof.Proof.Gen.ReferenceIdeal.Run
import proofs.«116480_j54073638256714_2_alg».proof.Proof.Gen.ReferenceIdeal.Read
import proofs.«116480_j54073638256714_2_alg».proof.Proof.Gen.Pre_finite_inputs
import proofs.«116480_j54073638256714_2_alg».proof.Proof.RefSide
import proofs.«116480_j54073638256714_2_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation of the kernel. -/
theorem preserves : Cert.preserves_Kernel_KernelIdeal := trivial

/-- From memories that agree on the five arguments both programs end with their result at the specification of those
    arguments: the kernel program by its run read back (`kernel_run`), the reference by its run and `reference_eq`. -/
theorem algebraic : Cert.algebraic_KernelIdeal_ReferenceIdeal := by
  intro m ρ m' ρ' _ hagree
  refine ⟨fun c => Cert.DequantSvd.spec m c, Cert.DequantSvd.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.DequantSvd.reference_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
